-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S16x128 : Shape := ⟨2, ![16, 128]⟩
abbrev S8192x128 : Shape := ⟨2, ![8192, 128]⟩
abbrev S8x128 : Shape := ⟨2, ![8, 128]⟩
abbrev S1024x8x128 : Shape := ⟨3, ![1024, 8, 128]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S8x128, .f32⟩
  | .local _ .vmem, ⟨5, _⟩ => ⟨S8x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S262144x128 : S33554432.ShapeCasts S262144x128
  inb_S8x128_S8x128_0_0 : ∀ a, (![0, 0] : Fin 2 → Nat) a + S8x128.size a ≤ S8x128.size a
  h_S8x128 : 0 < S8x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S1024x8x128 : S8192x128.ShapeCasts S1024x8x128
  reduces_S1024x8x128_S8x128 : S1024x8x128.Reduces [0] S8x128
  shapeCasts_S8x128_S8x128 : S8x128.ShapeCasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .i32 = 32 ∨ (Rect.block (s := S262144x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432, .f32⟩
  | .hbm, ⟨3, _⟩ => ⟨S_, .f32⟩
  | .hbm, ⟨4, _⟩ => ⟨S33554432, .f32⟩
  | .hbm, ⟨5, _⟩ => ⟨S33554432, .f32⟩
  | .hbm, ⟨6, _⟩ => ⟨S33554432, .f32⟩
  | .hbm, ⟨7, _⟩ => ⟨S_, .f32⟩
  | .hbm, ⟨8, _⟩ => ⟨S33554432, .f32⟩
  | .hbm, ⟨9, _⟩ => ⟨S33554432, .f32⟩
  | .hbm, ⟨10, _⟩ => ⟨S33554432, .f32⟩
  | .hbm, ⟨11, _⟩ => ⟨S_, .f32⟩
  | .hbm, ⟨12, _⟩ => ⟨S33554432, .f32⟩
  | .hbm, ⟨13, _⟩ => ⟨S33554432, .f32⟩
  | .hbm, ⟨14, _⟩ => ⟨S_, .f32⟩
  | .hbm, ⟨15, _⟩ => ⟨S33554432, .f32⟩
  | .hbm, ⟨16, _⟩ => ⟨S33554432, .f32⟩
  | .hbm, ⟨17, _⟩ => ⟨S33554432, .f32⟩
  | .hbm, ⟨18, _⟩ => ⟨S33554432, .f32⟩
  | .hbm, ⟨19, _⟩ => ⟨S_, .f32⟩
  | .hbm, ⟨20, _⟩ => ⟨S33554432, .f32⟩
  | .hbm, ⟨21, _⟩ => ⟨S33554432, .f32⟩
  | .hbm, ⟨22, _⟩ => ⟨S33554432, .f32⟩
  | .hbm, ⟨23, _⟩ => ⟨S_, .f32⟩
  | .hbm, ⟨24, _⟩ => ⟨S33554432, .f32⟩
  | .hbm, ⟨25, _⟩ => ⟨S33554432, .f32⟩
  | .hbm, ⟨26, _⟩ => ⟨S_, .i32⟩
  | .hbm, ⟨27, _⟩ => ⟨S33554432, .i32⟩
  | .hbm, ⟨28, _⟩ => ⟨S33554432, .i1⟩
  | .hbm, ⟨29, _⟩ => ⟨S33554432, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.KernelPieces.lean ====
/-
  What one grid point leaves in the 8 × 128 output block, as a value.

  The body has two control cases.  At the first point of a chunk (its second grid coordinate is zero) it stores the zero
  block, reads it back, and then stores `zero + fold(tile)`; at every later point it stores `block + fold(tile)` over the
  block the point before left.  In both cases the block ends as the body's one arithmetic term applied to the two input
  tiles and to the block it accumulates into: the zero block in the first case, the running block in the second.
  Nothing here depends on what a float is.
-/
import proofs.«144632_j40870908788865_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The stores and loads of the body all start at the origin of their buffers. -/
theorem origin : (![0, 0] : Fin 2 → Nat) = fun _ => 0 := funext fun a => by fin_cases a <;> rfl

/-- A later point of a chunk: over the running block `acc`, the body leaves its arithmetic term of the two tiles and `acc`
    (one store covering the block, its loads reading the whole buffers). -/
theorem later_point (c : Dev nD) (i : grid0.Coords) (a2 : Memref sig .tc .vmem S8192x128 .f32) (h2 : a2.IsWhole)
    (a3 : Memref sig .tc .vmem S8192x128 .i32) (h3 : a3.IsWhole) (a4 : Memref sig .tc .vmem S8x128 .f32) (h4 : a4.IsWhole)
    (hc : ¬cond0_0 i) (x : Vec F S8192x128 .f32) (t : Vec F S8192x128 .i32) (acc : Vec F S8x128 .f32) :
    out0_B_2 c i a2 h2 a3 h3 a4 h4 hc x t acc = k0_pay2 x t acc := by
  unfold out0_B_2
  rw [View.read_writes_eq_canon _ _ _ (cover0_B_2 c i a2 h2 a3 h3 a4 h4 hc x t acc)]
  unfold kernelRun0_B
  dsimp only
  rw [View.canon_unit_zero origin]
  simp only [View.readAt_eq_ld, h2.read_unread, h3.read_unread, h4.read_unread,
    View.ld_unit_zero (S := S8192x128) origin, View.ld_unit_zero (S := S8x128) origin]

/-- The first point of a chunk: the body stores the zero block, reads it back, and leaves its arithmetic term of the two
    tiles and the zero block. -/
theorem first_point (c : Dev nD) (i : grid0.Coords) (a2 : Memref sig .tc .vmem S8192x128 .f32) (h2 : a2.IsWhole)
    (a3 : Memref sig .tc .vmem S8192x128 .i32) (h3 : a3.IsWhole) (a4 : Memref sig .tc .vmem S8x128 .f32) (h4 : a4.IsWhole)
    (hc : cond0_0 i) (x : Vec F S8192x128 .f32) (t : Vec F S8192x128 .i32) :
    out0_A_2 c i a2 h2 a3 h3 a4 h4 hc x t = k0_pay2 x t (k0_pay1 (F := F)) := by
  unfold out0_A_2
  rw [View.read_writes_eq_canon _ _ _ (cover0_A_2 c i a2 h2 a3 h3 a4 h4 hc x t)]
  unfold kernelRun0_A
  dsimp only
  sl_unfold_words
  rw [View.canon_cons_unit_zero (S := S8x128) origin, View.readCov_unit_zero (S := S8x128) _ origin]
  simp only [View.readAt_eq_ld, h2.read_unread, h3.read_unread,
    View.ld_unit_zero (S := S8192x128) origin]

end Cert.KernelIdeal.Pieces

end
-- ==== Proof.FocalTerm.lean ====
/-
  The focal-loss term of one element, on the extended reals.

  For a probability `x` and a label `t` the loss contributes
    `log x · (1 - x)²`        when `t = 1`,
    `log (1 - x) · x²`        otherwise.
  One program selects the active probability `p` first (`x` or `1 - x`) and forms `log p · ((1 - p)·(1 - p))`;
  the other forms both branches with `|·| ^ 2` and a trailing factor `1`, and selects afterwards.  On a FINITE `x` the
  two agree: `1 - (1 - x) = x` in the reals, and `|y| ^ 2 = y · y`.  (At `x = ±∞` the first identity fails, which is
  why the law is stated for a real `x`.)
-/
import Idealize.ShloMosaic.PureOps.Ideal
import Idealize.ShloMosaic.PureOps.Ideal.Laws
import Idealize.ShloMosaic.Lib.ValueIdx

noncomputable section

namespace Focal

open Idealize.ShloMosaic

/-- The word `0x3F800000` is the real number one. -/
theorem one_word : Ideal.ofBits .f32 0x3F800000#32 = ((1 : ℝ) : EReal) := by
  simp [Ideal.ofBits, Ideal.ieee, -EReal.coe_mul]; norm_num

/-- The word `0x40000000` is the real number two. -/
theorem two_word : Ideal.ofBits .f32 0x40000000#32 = ((2 : ℝ) : EReal) := by
  simp [Ideal.ofBits, Ideal.ieee, -EReal.coe_mul]; norm_num

/-- The label test: the one-bit word that is `1` exactly when the label is `1`. -/
abbrev isOne (t : BitVec 32) : BitVec 1 := IntOp.cmpi .eq t 1#32

/-- The active probability: `x` under label one, `1 - x` otherwise. -/
def active (x : EReal) (t : BitVec 32) : EReal :=
  Scalar.select (isOne t) x (Ideal.ofBits .f32 0x3F800000#32 - x)

/-- The term with the probability selected first: `log p · ((1 - p) · (1 - p))`. -/
def selTerm (x : EReal) (t : BitVec 32) : EReal :=
  Ideal.log (active x t)
    * ((Ideal.ofBits .f32 0x3F800000#32 - active x t) * (Ideal.ofBits .f32 0x3F800000#32 - active x t))

/-- The term with both branches formed and the choice made last:
    `log x · |1 - x| ^ 2 · 1` under label one, `log (1 - x) · |x| ^ 2 · 1` otherwise. -/
def bothTerm (x : EReal) (t : BitVec 32) : EReal :=
  Scalar.select (isOne t)
    (Ideal.log x
        * Ideal.pow (max (Ideal.ofBits .f32 0x3F800000#32 - x) (-(Ideal.ofBits .f32 0x3F800000#32 - x)))
            (Ideal.ofBits .f32 0x40000000#32)
      * Ideal.ofBits .f32 0x3F800000#32)
    (Ideal.log (Ideal.ofBits .f32 0x3F800000#32 - x)
        * Ideal.pow (max x (-x)) (Ideal.ofBits .f32 0x40000000#32)
      * Ideal.ofBits .f32 0x3F800000#32)

/-- The square of an absolute value of a real, as a real power with exponent two, is the product with itself. -/
theorem pow_abs_two (a : ℝ) :
    Ideal.pow (max (a : EReal) (-(a : EReal))) ((2 : ℝ) : EReal) = (a : EReal) * (a : EReal) := by
  have hm : max (a : EReal) ((-a : ℝ) : EReal) = ((max a (-a) : ℝ) : EReal) :=
    (EReal.coe_strictMono.monotone.map_max).symm
  rw [← EReal.coe_neg, hm, Ideal.pow_coe_coe, ← EReal.coe_mul]
  congr 1
  show (max a (-a)) ^ (2 : ℝ) = a * a
  rw [← abs_eq_max_neg, Real.rpow_two, sq_abs, sq]

/-- THE LAW: on a finite probability the two arrangements of the term are one extended real. -/
theorem selTerm_eq_bothTerm (r : ℝ) (t : BitVec 32) : selTerm (r : EReal) t = bothTerm (r : EReal) t := by
  unfold selTerm bothTerm active
  rw [one_word, two_word]
  by_cases h : isOne t = 1#1
  · rw [h]
    simp only [ValueIdx.select_one]
    rw [← EReal.coe_sub, pow_abs_two, EReal.coe_one, mul_one]
  · rw [ValueIdx.eq_zero_of_ne_one h]
    simp only [ValueIdx.select_zero]
    have e : ((1 : ℝ) : EReal) - (((1 : ℝ) : EReal) - (r : EReal)) = (r : EReal) := by
      rw [← EReal.coe_sub, ← EReal.coe_sub, sub_sub_cancel]
    rw [e, pow_abs_two, EReal.coe_one, mul_one]

end Focal

end
-- ==== Proof.FocalLayout.lean ====
/-
  How the 33,554,432 elements are laid out over the grid, and why the grid's partial sums add up to the whole sum.

  The flat array is cut into 32 tiles of 8192 rows by 128 lanes; tile `t` holds flat positions
  `(8192·t + ρ)·128 + l`.  Within a tile, row `ρ = 8·j + r` belongs to row group `j` (of 1024) and sits at height `r`
  (of 8).  Chunk `p` (of 2) owns tiles `16·p … 16·p + 15` and keeps an 8 × 128 block: at the chunk's first tile the block
  is set to the tile's fold (the sum of its 1024 row groups), at each later tile the tile's fold is added to it.  After
  the chunk's last tile, entry `(r, l)` of the block is the sum over the chunk's 16 tiles and the 1024 row groups of
  the elements at height `r`, lane `l`.  The two blocks stacked are 16 × 128 entries, and every flat position is counted
  in exactly one of them: the five coordinates (chunk, height, lane, tile in chunk, row group) are the digits of the flat
  position in a mixed radix, in another order.  Sums on the extended reals may be reordered freely (addition there is
  commutative and associative), so the entries add up to the sum of all elements.
-/
import Idealize.ShloMosaic.Lib.ValueIdx
import Mathlib.Algebra.BigOperators.Fin
import Mathlib.Data.EReal.Basic

noncomputable section

namespace Focal

/-- Row `r` of row group `j` of a tile: its row `8·j + r`. -/
abbrev tileRow (j : Fin 1024) (r : Fin 8) : Fin 8192 := ⟨8 * j.val + r.val, by omega⟩

/-- The flat position of lane `l` of row `ρ` of tile `t`. -/
abbrev flat (t : Fin 32) (ρ : Fin 8192) (l : Fin 128) : Fin 33554432 :=
  ⟨(8192 * t.val + ρ.val) * 128 + l.val, by have := t.isLt; have := ρ.isLt; have := l.isLt; omega⟩

variable (f : Fin 33554432 → EReal)

/-- The fold of tile `t` at height `r`, lane `l`: the sum over its 1024 row groups. -/
def tileFold (t : Fin 32) (r : Fin 8) (l : Fin 128) : EReal := ∑ j : Fin 1024, f (flat t (tileRow j r) l)

/-- The same with the tile given as a natural number (zero beyond the 32 tiles, which no point reaches). -/
def tileFoldN (n : ℕ) (r : Fin 8) (l : Fin 128) : EReal := if h : n < 32 then tileFold f ⟨n, h⟩ r l else 0

theorem tileFoldN_of_lt (n : ℕ) (h : n < 32) (r : Fin 8) (l : Fin 128) : tileFoldN f n r l = tileFold f ⟨n, h⟩ r l :=
  dif_pos h

/-- THE RUNNING BLOCK after point `n`: at the first tile of a chunk the tile's fold, afterwards the block before plus the
    tile's fold. -/
def running (r : Fin 8) (l : Fin 128) : ℕ → EReal
  | 0 => tileFoldN f 0 r l
  | n + 1 => if (n + 1) % 16 = 0 then tileFoldN f (n + 1) r l else running r l n + tileFoldN f (n + 1) r l

theorem running_first (r : Fin 8) (l : Fin 128) (n : ℕ) (h : n % 16 = 0) : running f r l n = tileFoldN f n r l := by
  cases n with
  | zero => rfl
  | succ n => exact if_pos h

theorem running_later (r : Fin 8) (l : Fin 128) (n : ℕ) (h : ¬(n + 1) % 16 = 0) :
    running f r l (n + 1) = running f r l n + tileFoldN f (n + 1) r l :=
  if_neg h

/-- Within chunk `p`, the running block after its tile number `k` is the sum of the folds of its tiles `0 … k`. -/
theorem running_eq_sum (r : Fin 8) (l : Fin 128) (p : ℕ) :
    ∀ k : ℕ, k < 16 → running f r l (16 * p + k) = ∑ k' ∈ Finset.range (k + 1), tileFoldN f (16 * p + k') r l
  | 0, _ => by
    rw [running_first f r l _ (by omega), Finset.sum_range_one]
  | k + 1, hk => by
    rw [show 16 * p + (k + 1) = (16 * p + k) + 1 from rfl, running_later f r l _ (by omega),
      running_eq_sum r l p k (by omega), Finset.sum_range_succ _ (k + 1)]
    rfl

/-- Entry `(a, l)` of the two stacked blocks: chunk `a / 8`, height `a % 8`, summed over the chunk's 16 tiles and the
    1024 row groups. -/
def outEntry (a : Fin 16) (l : Fin 128) : EReal :=
  ∑ k : Fin 16, ∑ j : Fin 1024,
    f (flat ⟨16 * (a.val / 8) + k.val, by have := a.isLt; have := k.isLt; omega⟩ (tileRow j ⟨a.val % 8, by omega⟩) l)

/-- The running block after a chunk's last tile is that entry. -/
theorem running_last (a : Fin 16) (l : Fin 128) :
    running f ⟨a.val % 8, by omega⟩ l (16 * (a.val / 8) + 15) = outEntry f a l := by
  have ha := a.isLt
  rw [running_eq_sum f _ l (a.val / 8) 15 (by omega), Finset.sum_range]
  unfold outEntry
  refine Finset.sum_congr rfl fun k _ => ?_
  have hk := k.isLt
  rw [tileFoldN_of_lt f _ (by omega)]
  rfl

/-- The five coordinates of a flat position, in the order the grid visits them:
    chunk, height, lane, tile within the chunk, row group. -/
abbrev place (x : Fin 2 × Fin 8 × Fin 128 × Fin 16 × Fin 1024) : Fin 33554432 :=
  flat ⟨16 * x.1.val + x.2.2.2.1.val, by have := x.1.isLt; have := x.2.2.2.1.isLt; omega⟩ (tileRow x.2.2.2.2 x.2.1) x.2.2.1

/-- Every flat position has exactly one such set of coordinates: they are its mixed-radix digits. -/
theorem place_bijective : Function.Bijective place := by
  rw [Fintype.bijective_iff_injective_and_card]
  refine ⟨?_, by simp⟩
  rintro ⟨p, r, l, k, j⟩ ⟨p', r', l', k', j'⟩ h
  have hv := congrArg Fin.val h
  simp only [place, flat, tileRow] at hv
  have := p.isLt; have := r.isLt; have := l.isLt; have := k.isLt; have := j.isLt
  have := p'.isLt; have := r'.isLt; have := l'.isLt; have := k'.isLt; have := j'.isLt
  have e1 : p.val = p'.val := by omega
  have e2 : r.val = r'.val := by omega
  have e3 : l.val = l'.val := by omega
  have e4 : k.val = k'.val := by omega
  have e5 : j.val = j'.val := by omega
  rw [Fin.ext e1, Fin.ext e2, Fin.ext e3, Fin.ext e4, Fin.ext e5]

/-- THE WHOLE SUM: the 16 × 128 entries of the two blocks add up to the sum of all elements. -/
theorem sum_outEntry : ∑ a : Fin 16, ∑ l : Fin 128, outEntry f a l = ∑ i : Fin 33554432, f i := by
  rw [← Function.Bijective.sum_comp place_bijective f]
  simp only [Fintype.sum_prod_type]
  have split : ∀ g : Fin 16 → EReal,
      ∑ a : Fin 16, g a = ∑ p : Fin 2, ∑ r : Fin 8, g (finProdFinEquiv (m := 2) (n := 8) (p, r)) := by
    intro g
    have e := (finProdFinEquiv (m := 2) (n := 8)).sum_comp (g : Fin (2 * 8) → EReal)
    rw [Fintype.sum_prod_type] at e
    exact e.symm
  rw [split]
  refine Finset.sum_congr rfl fun p _ => Finset.sum_congr rfl fun r _ => Finset.sum_congr rfl fun l _ => ?_
  unfold outEntry
  refine Finset.sum_congr rfl fun k _ => Finset.sum_congr rfl fun j _ => congrArg f (Fin.ext ?_)
  have := p.isLt; have := r.isLt
  have hv : (finProdFinEquiv (p, r) : Fin (2 * 8)).val = r.val + 8 * p.val := rfl
  simp only [place, flat, tileRow, hv]
  omega

end Focal

end
-- ==== Proof.KernelPayload.lean ====
/-
  The body's arithmetic, read at one entry of the 8 × 128 block, on the extended reals.

  The body takes a tile of 8192 rows by 128 lanes of probabilities and of labels, forms the focal term of every element,
  regroups the rows as 1024 groups of 8 (row `8·j + r` of the tile is row `r` of group `j`), adds the groups together,
  and adds the result to the block it accumulates into.  So entry `(r, l)` of what it stores is
      `acc (r, l) + ∑ j < 1024, term (tile (8·j + r, l))`.
-/
import proofs.«144632_j40870908788865_2_alg».proof.Proof.Gen.KernelIdeal.Skeleton
import proofs.«144632_j40870908788865_2_alg».proof.Proof.FocalTerm
import proofs.«144632_j40870908788865_2_alg».proof.Proof.FocalLayout
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.ValueIdx

namespace Cert.KernelIdeal.Payload

open Cert.KernelIdeal Cert.KernelIdeal.Gen
open Focal (tileRow)

/-- The focal term of every element of a tile. -/
abbrev tileTerms (x : Vec Ideal S8192x128 .f32) (t : Vec Ideal S8192x128 .i32) : FVec Ideal S8192x128 .f32 :=
  fun i => Focal.selTerm (x i) (t i)

/-- Adding the 1024 row groups at `(r, l)` inserts the group's number in front of the coordinates. -/
theorem group_index (r : Fin 8) (l : Fin 128) (j : Fin 1024) :
    reduces_S1024x8x128_S8x128.lift (ix2 r l) j = ix3 j r l := by
  funext a
  match a with
  | ⟨0, _⟩ => rfl
  | ⟨1, _⟩ => rfl
  | ⟨2, _⟩ => rfl

/-- Regrouping the rows keeps the row-major position: `(j, r, l)` of the groups is `(8·j + r, l)` of the tile. -/
theorem regroup_apply (v : FVec Ideal S8192x128 .f32) (r : Fin 8) (l : Fin 128) (j : Fin 1024) :
    shapeCast S1024x8x128 v shapeCasts_S8192x128_S1024x8x128 (ix3 j r l) = v (ix2 (tileRow j r) l) := by
  refine shapeCast_apply v shapeCasts_S8192x128_S1024x8x128 (ix3 j r l) (ix2 (tileRow j r) l) ?_
  rw [Shape.rowMajor_val_two, Shape.rowMajor_val_three]
  show (8 * j.val + r.val) * 128 + l.val = (j.val * 8 + r.val) * 128 + l.val
  omega

/-- The zero block the first point of a chunk stores is zero everywhere. -/
theorem zero_block_apply (y : S8x128.Idx) : k0_pay1 (F := Ideal) y = 0 :=
  Ideal.ofBits_zero_f32

/-- THE BODY AT AN ENTRY: the accumulated entry plus the sum over the 1024 row groups of the focal terms. -/
theorem body_apply (x : Vec Ideal S8192x128 .f32) (t : Vec Ideal S8192x128 .i32) (acc : Vec Ideal S8x128 .f32)
    (r : Fin 8) (l : Fin 128) :
    k0_pay2 (F := Ideal) x t acc (ix2 r l)
      = acc (ix2 r l) + ∑ j : Fin 1024, Focal.selTerm (x (ix2 (tileRow j r) l)) (t (ix2 (tileRow j r) l)) := by
  unfold k0_pay2
  simp only [shapeCast_self]
  show acc (ix2 r l) + multiReduction .add [0] S8x128 (shapeCast S1024x8x128 (tileTerms x t) shapeCasts_S8192x128_S1024x8x128)
      0x00000000#32 reduces_S1024x8x128_S8x128 (.inl rfl) rfl (ix2 r l) = _
  refine congrArg (acc (ix2 r l) + ·) ?_
  refine (Ideal.multiReduction_add_single _ 0x00000000#32 reduces_S1024x8x128_S8x128 (.inl rfl) rfl (ix2 r l)).trans ?_
  refine Finset.sum_congr rfl fun j _ => ?_
  show shapeCast S1024x8x128 (tileTerms x t) shapeCasts_S8192x128_S1024x8x128 (reduces_S1024x8x128_S8x128.lift (ix2 r l) j) = _
  rw [group_index r l j]
  exact regroup_apply (tileTerms x t) r l j

end Cert.KernelIdeal.Payload

end
-- ==== Proof.KernelTiles.lean ====
/-
  The input tiles, read back to the argument arrays.

  Before the grid runs, the flat arrays of 33,554,432 probabilities and labels are regrouped as 262,144 rows of 128 lanes
  (element `R·128 + l` becomes row `R`, lane `l`).  Grid point `t` of the 32 fetches rows `8192·t … 8192·t + 8191`:
  the block index the point computes from its two coordinates `(p, k)` is `16·p + k`, which is the point's own number.
  So entry `(ρ, l)` of point `t`'s tile is flat element `(8192·t + ρ)·128 + l` of the argument.
-/
import proofs.«144632_j40870908788865_2_alg».proof.Proof.Gen.KernelIdeal.Frame
import proofs.«144632_j40870908788865_2_alg».proof.Proof.FocalLayout
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.ValueIdx

namespace Cert.KernelIdeal.Tiles

open Cert.KernelIdeal Cert.KernelIdeal.Gen
open Focal (flat)

variable {F : FTy → Type} [FloatOps F]
variable (m : (ℓ : Loc nD τ sig) → Buf (Elt F) ℓ)

/-- A row of the regrouped array: row `8192·t + ρ` of the 262,144. -/
abbrev bigRow (t : Fin 32) (ρ : Fin 8192) : Fin 262144 :=
  ⟨8192 * t.val + ρ.val, by have := t.isLt; have := ρ.isLt; omega⟩

/-- Regrouping a flat array in rows of 128 keeps the row-major position. -/
theorem rows_apply {α : Type} (X : S33554432.Idx → α) (t : Fin 32) (ρ : Fin 8192) (l : Fin 128) :
    shapeCast S262144x128 X shapeCasts_S33554432_S262144x128 (ix2 (bigRow t ρ) l) = X (ix1 (flat t ρ l)) := by
  refine shapeCast_apply X shapeCasts_S33554432_S262144x128 (ix2 (bigRow t ρ) l) (ix1 (flat t ρ l)) ?_
  rw [Shape.rowMajor_val_one, Shape.rowMajor_val_two]
  rfl

/-- The grid finds the probabilities regrouped in rows of 128; -/
theorem entry_probs (c : Dev nD) :
    (V m c main_v0 : S262144x128.Idx → F .f32)
      = shapeCast S262144x128 (m ((c : Thread nD τ).loc main_arg0)) shapeCasts_S33554432_S262144x128 := by
  show StableHlo.after hostOps0 (fun b => m (c, b)) (Proc.devRef .tc main_v0) = _
  after_results
  rfl

/-- and the labels likewise. -/
theorem entry_labels (c : Dev nD) :
    (V m c main_v1 : S262144x128.Idx → BitVec 32)
      = shapeCast S262144x128 (m ((c : Thread nD τ).loc main_arg1)) shapeCasts_S33554432_S262144x128 := by
  show StableHlo.after hostOps0 (fun b => m (c, b)) (Proc.devRef .tc main_v1) = _
  after_results
  rfl

/-- Both input windows fetch, at point `t`, the block of rows numbered `t`, from lane 0. -/
theorem block_of_point : ∀ t : Fin cfg0.N,
    (win0_0.index t 0 = t.val ∧ win0_0.index t 1 = 0) ∧ (win0_1.index t 0 = t.val ∧ win0_1.index t 1 = 0) :=
  (by decide +kernel : ∀ t : Fin grid0.N,
    (win0_0.index t 0 = t.val ∧ win0_0.index t 1 = 0) ∧ (win0_1.index t 0 = t.val ∧ win0_1.index t 1 = 0))

/-- The grid's points, as numbers below 32. -/
abbrev pt (t : Fin cfg0.N) : Fin 32 := ⟨t.val, lt_of_lt_of_eq t.isLt (show cfg0.N = 32 from N_0)⟩

/-- Entry `(ρ, l)` of point `t`'s tile of probabilities is flat element `(8192·t + ρ)·128 + l` of the argument. -/
theorem probs_tile_apply (c : Dev nD) (t : Fin cfg0.N) (ρ : Fin 8192) (l : Fin 128) :
    (iblk m c 0 t : Vec F S8192x128 .f32) (ix2 ρ l)
      = m ((c : Thread nD τ).loc main_arg0) (ix1 (flat (pt t) ρ l)) := by
  have hi := (block_of_point t).1
  rw [← rows_apply (m ((c : Thread nD τ).loc main_arg0)) (pt t) ρ l, ← entry_probs m c]
  unfold iblk
  rw [View.read_apply]
  show V m c main_v0 _ = V m c main_v0 _
  congr 1
  funext a
  apply Fin.ext
  match a with
  | ⟨0, _⟩ => show win0_0.index t 0 * 8192 + 1 * ρ.val = 8192 * t.val + ρ.val; rw [hi.1]; omega
  | ⟨1, _⟩ => show win0_0.index t 1 * 128 + 1 * l.val = l.val; rw [hi.2]; omega

/-- The same of the labels. -/
theorem labels_tile_apply (c : Dev nD) (t : Fin cfg0.N) (ρ : Fin 8192) (l : Fin 128) :
    (iblk m c 1 t : Vec F S8192x128 .i32) (ix2 ρ l)
      = m ((c : Thread nD τ).loc main_arg1) (ix1 (flat (pt t) ρ l)) := by
  have hi := (block_of_point t).2
  rw [← rows_apply (m ((c : Thread nD τ).loc main_arg1)) (pt t) ρ l, ← entry_labels m c]
  unfold iblk
  rw [View.read_apply]
  show V m c main_v1 _ = V m c main_v1 _
  congr 1
  funext a
  apply Fin.ext
  match a with
  | ⟨0, _⟩ => show win0_1.index t 0 * 8192 + 1 * ρ.val = 8192 * t.val + ρ.val; rw [hi.1]; omega
  | ⟨1, _⟩ => show win0_1.index t 1 * 128 + 1 * l.val = l.val; rw [hi.2]; omega

end Cert.KernelIdeal.Tiles

end
-- ==== Proof.KernelAccum.lean ====
/-
  The output block, point by point, on the extended reals: it is the running sum of the tiles' folds.

  At the first point of a chunk the block is `0 + fold(tile)`, which is `fold(tile)`; at a later point it is the block
  the point before left plus `fold(tile)`.  With the tiles read back to the argument arrays, the block after point `n`
  is the recursion `Focal.running` over the focal terms of the arguments' elements — by induction on the point.
-/
import proofs.«144632_j40870908788865_2_alg».proof.Proof.KernelPieces
import proofs.«144632_j40870908788865_2_alg».proof.Proof.KernelPayload
import proofs.«144632_j40870908788865_2_alg».proof.Proof.KernelTiles
import proofs.«144632_j40870908788865_2_alg».proof.Proof.FocalLayout

set_option maxRecDepth 16384

noncomputable section

open Idealize.ShloMosaic Idealize.ShloMosaic.TcCoe Idealize.SL.Sem
open Idealize.ShloMosaic.ValueIdx

namespace Cert.KernelIdeal.Accum

open Cert.KernelIdeal Cert.KernelIdeal.Gen
open Focal (tileRow flat tileFold tileFoldN running)

variable (m : (ℓ : Loc nD τ sig) → Buf (Elt Ideal) ℓ)

/-- The focal term of every flat element of the two argument arrays. -/
abbrev terms (c : Dev nD) : Fin 33554432 → EReal := fun i =>
  Focal.selTerm (m ((c : Thread nD τ).loc main_arg0) (ix1 i)) (m ((c : Thread nD τ).loc main_arg1) (ix1 i))

/-- The fold of the tile point `t` fetched, at height `r` and lane `l`, is the fold of tile number `t` of the arguments. -/
theorem tile_fold (c : Dev nD) (t : Fin cfg0.N) (r : Fin 8) (l : Fin 128) :
    ∑ j : Fin 1024, Focal.selTerm ((iblk m c 0 t : Vec Ideal S8192x128 .f32) (ix2 (tileRow j r) l))
        ((iblk m c 1 t : Vec Ideal S8192x128 .i32) (ix2 (tileRow j r) l))
      = tileFoldN (terms m c) t.val r l := by
  rw [Focal.tileFoldN_of_lt _ _ (lt_of_lt_of_eq t.isLt (show cfg0.N = 32 from N_0))]
  unfold Focal.tileFold
  refine Finset.sum_congr rfl fun j _ => ?_
  rw [Tiles.probs_tile_apply m c t (tileRow j r) l, Tiles.labels_tile_apply m c t (tileRow j r) l]

/-- At the first point of a chunk the block is the tile's fold. -/
theorem first_entry (c : Dev nD) (t : Fin cfg0.N) (h0 : t.val % 16 = 0) (r : Fin 8) (l : Fin 128) :
    outsAt0 m c t.val t.isLt (ix2 r l) = tileFoldN (terms m c) t.val r l := by
  have e1 := outsAt0_A m c t h0
  have e2 := Pieces.first_point (F := Ideal) c (grid0.coords t) (ms0_0 t) (hs0_0 t) (ms0_1 t) (hs0_1 t) (ms0_2 t) (hs0_2 t)
    ((hcond0_0 t).mpr h0) (iblk m c 0 t) (iblk m c 1 t)
  have e3 := Payload.body_apply (iblk m c 0 t) (iblk m c 1 t) (k0_pay1 (F := Ideal)) r l
  refine (congrFun (e1.trans e2) (ix2 r l)).trans (e3.trans ?_)
  rw [Payload.zero_block_apply, zero_add]
  exact tile_fold m c t r l

/-- At a later point it is the block the point before left, plus the tile's fold. -/
theorem later_entry (c : Dev nD) (t : Fin cfg0.N) (h0 : ¬t.val % 16 = 0) (r : Fin 8) (l : Fin 128) :
    outsAt0 m c t.val t.isLt (ix2 r l)
      = outsAt0 m c (t.val - 1) (Nat.lt_of_le_of_lt (Nat.sub_le _ _) t.isLt) (ix2 r l) + tileFoldN (terms m c) t.val r l := by
  have e1 := outsAt0_B m c t h0
  have e2 := Pieces.later_point (F := Ideal) c (grid0.coords t) (ms0_0 t) (hs0_0 t) (ms0_1 t) (hs0_1 t) (ms0_2 t) (hs0_2 t)
    (fun h => h0 ((hcond0_0 t).mp h)) (iblk m c 0 t) (iblk m c 1 t)
    (outsAt0 m c (t.val - 1) (Nat.lt_of_le_of_lt (Nat.sub_le _ _) t.isLt))
  have e3 := Payload.body_apply (iblk m c 0 t) (iblk m c 1 t)
    (outsAt0 m c (t.val - 1) (Nat.lt_of_le_of_lt (Nat.sub_le _ _) t.isLt)) r l
  refine (congrFun (e1.trans e2) (ix2 r l)).trans (e3.trans ?_)
  rw [tile_fold m c t r l]

/-- THE BLOCK AFTER POINT `n` is the running sum of the folds of the chunk's tiles so far. -/
theorem block_eq_running (c : Dev nD) (r : Fin 8) (l : Fin 128) :
    ∀ (n : ℕ) (h : n < cfg0.N), outsAt0 m c n h (ix2 r l) = running (terms m c) r l n
  | 0, h => (first_entry m c ⟨0, h⟩ rfl r l).trans (Focal.running_first _ r l 0 rfl).symm
  | n + 1, h => by
    by_cases h0 : (n + 1) % 16 = 0
    · exact (first_entry m c ⟨n + 1, h⟩ h0 r l).trans (Focal.running_first _ r l (n + 1) h0).symm
    · refine (later_entry m c ⟨n + 1, h⟩ h0 r l).trans ?_
      rw [Focal.running_later _ r l n h0]
      exact congrArg (· + tileFoldN (terms m c) (n + 1) r l) (block_eq_running c r l n _)

end Cert.KernelIdeal.Accum

end
-- ==== Proof.KernelArray.lean ====
/-
  From the block to the 16 × 128 result array.

  The output block is written back to the array only after the last tile of each chunk: at points 15 and 31, to block
  row `t / 16` of the array, that is to rows `8·(t / 16) … 8·(t / 16) + 7`.  What is written is the running sum after the
  chunk's sixteenth tile, which is `Focal.outEntry`.  The two blocks tile the array (row `a` is in block `a / 8`), so after
  the run entry `(a, l)` of the array is `outEntry a l` of the focal terms of the arguments' elements.
-/
import proofs.«144632_j40870908788865_2_alg».proof.Proof.KernelAccum

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Array

open Cert.KernelIdeal Cert.KernelIdeal.Gen Cert.KernelIdeal.Accum

variable (m : (ℓ : Loc nD τ sig) → Buf (Elt Ideal) ℓ)

/-- The two blocks stacked: what the result array ends holding. -/
abbrev stacked (c : Dev nD) : S16x128.Idx → EReal := fun i => Focal.outEntry (terms m c) (i 0) (i 1)

/-- The output window's block at point `t` is block row `t / 16`, from lane 0. -/
theorem out_block_of_point : ∀ t : Fin cfg0.N, win0_2.index t 0 = t.val / 16 ∧ win0_2.index t 1 = 0 :=
  (by decide +kernel : ∀ t : Fin grid0.N, win0_2.index t 0 = t.val / 16 ∧ win0_2.index t 1 = 0)

/-- WHAT A WRITE-BACK WRITES: at a point that writes back, the block is block `t / 16` of the stacked entries. -/
theorem flushed_eq (c : Dev nD) (t : Fin cfg0.N) (hf : (cfg0.win 2).flush t = true) :
    (dats m 0 c).flushed 2 t = ((cfg0.win 2).blk t).view.read (Elt Ideal) (stacked m c) := by
  have hN : t.val < 32 := lt_of_lt_of_eq t.isLt (show cfg0.N = 32 from N_0)
  have h15 : t.val % 16 = 15 := (flush0_2 t).mp hf
  have hi := out_block_of_point t
  show (cfg0.win 2).cut (grid0.coords t) ((dats m 0 c).after 2 t) = _
  rw [after0_2]
  funext y
  obtain ⟨r, l, rfl⟩ : ∃ (r : Fin 8) (l : Fin 128), y = ix2 r l := ⟨y 0, y 1, eq_ix2 y⟩
  rw [View.read_apply]
  show outsAt0 m c t.val t.isLt (ix2 r l) = Focal.outEntry (terms m c)
    ((((cfg0.win 2).blk t).view.emb (ix2 r l)) 0) ((((cfg0.win 2).blk t).view.emb (ix2 r l)) 1)
  have ha : (((cfg0.win 2).blk t).view.emb (ix2 r l)) 0 = (⟨8 * (t.val / 16) + r.val, by omega⟩ : Fin 16) :=
    Fin.ext (by show win0_2.index t 0 * 8 + 1 * r.val = 8 * (t.val / 16) + r.val; rw [hi.1]; omega)
  have hl : (((cfg0.win 2).blk t).view.emb (ix2 r l)) 1 = l :=
    Fin.ext (by show win0_2.index t 1 * 128 + 1 * l.val = l.val; rw [hi.2]; omega)
  rw [ha, hl, block_eq_running m c r l t.val t.isLt, ← Focal.running_last]
  have e1 : (⟨(8 * (t.val / 16) + r.val) % 8, by omega⟩ : Fin 8) = r := Fin.ext (by show (8 * (t.val / 16) + r.val) % 8 = r.val; omega)
  have e2 : 16 * ((8 * (t.val / 16) + r.val) / 8) + 15 = t.val := by omega
  show Focal.running (terms m c) r l t.val
    = Focal.running (terms m c) ⟨(8 * (t.val / 16) + r.val) % 8, by omega⟩ l (16 * ((8 * (t.val / 16) + r.val) / 8) + 15)
  rw [e1, e2]

/-- An index of the array is in point `t`'s block iff each coordinate is in the block's range on its axis. -/
theorem mem_block (t : Fin cfg0.N) (i : S16x128.Idx) :
    i ∈ ((cfg0.win 2).blk t).view.set
      ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- Every entry of the array is in the block of a point that writes back: row `a` in that of point `16·(a / 8) + 15`. -/
theorem covered (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 32 := N_0
  let t : Fin cfg0.N := ⟨16 * ((i 0).val / 8) + 15, by rw [hN]; omega⟩
  have ht : t.val = 16 * ((i 0).val / 8) + 15 := rfl
  have hidx := out_block_of_point t
  refine ⟨t, (flush0_2 t).mpr (by rw [ht]; omega), ?_⟩
  rw [mem_block]
  intro a
  match a with
  | ⟨0, _⟩ =>
    show win0_2.index t 0 * 8 ≤ (i 0).val ∧ (i 0).val < win0_2.index t 0 * 8 + 8
    rw [hidx.1, ht]; omega
  | ⟨1, _⟩ =>
    show win0_2.index t 1 * 128 ≤ (i 1).val ∧ (i 1).val < win0_2.index t 1 * 128 + 128
    rw [hidx.2]; omega

/-- THE RESULT ARRAY after the run: the stacked entries. -/
theorem final_array (c : Dev nD) : (dats m 0 c).arrAt 2 cfg0.N = stacked m c :=
  (dats m 0 c).arrAt_eq_of_cover 2 (stacked m c) (flushed_eq m c) covered

end Cert.KernelIdeal.Array

end
-- ==== Proof.FocalLoss.lean ====
/-
  The loss from the total of the terms: the total is added to the initial value of the sum (the word of `+0.0`), divided
  by the number of elements (the word `0x4C000000`, which is 2²⁵ = 33,554,432) and negated.  Both programs end with
  exactly these three steps on exactly these two words, so neither word is ever evaluated.
-/
import Idealize.ShloMosaic.PureOps.Ideal

noncomputable section

namespace Focal

open Idealize.ShloMosaic

/-- `-((0 + S) / n)` with the two words as the programs spell them. -/
def lossOf (S : EReal) : EReal :=
  -(Ideal.div (Ideal.ofBits .f32 0x00000000#32 + S) (Ideal.ofBits .f32 0x4C000000#32))

end Focal

end
-- ==== Proof.KernelResult.lean ====
/-
  The idealized kernel's result, as one function of the argument arrays.

  After the grid, three host operations finish the job: the 16 × 128 array is summed from the zero word, the sum is
  divided by the number of elements, and the quotient is negated.  The array holds the stacked block entries, whose sum
  is the sum of the focal terms of all 33,554,432 elements (`Focal.sum_outEntry`).  So the kernel ends with
  `lossOf (∑ i, term i)`, its arguments unchanged.
-/
import proofs.«144632_j40870908788865_2_alg».proof.Proof.KernelArray
import proofs.«144632_j40870908788865_2_alg».proof.Proof.FocalLoss
import Idealize.ShloMosaic.Lib.StableHlo.Run
import Idealize.ShloMosaic.PureOps.Ideal.Laws

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- The host's sum of a 16 × 128 array from the zero word: that word plus the sum of every entry. -/
theorem host_sum_apply (y : FVec Ideal S16x128 .f32) (j : S_.Idx) :
    Host.reduceAdd (F := Ideal) y (constant (F := Ideal) S_ .f32 0x00000000#32) reducesTo_S16x128_S_d0_1 h_S_ j
      = Ideal.ofBits .f32 0x00000000#32 + ∑ i : S16x128.Idx, y i := by
  simp only [Host.reduceAdd, Ideal.hostReduceAdd_def]
  exact Ideal.hostReduceAdd_total reducesTo_S16x128_S_d0_1 (fun b => b.elim0) y _ j

/-- The entries of the result array add up to the sum of the focal terms of all elements. -/
theorem array_sum (c : Dev nD) :
    ∑ i : S16x128.Idx, Array.stacked m c i = ∑ i : Fin 33554432, Accum.terms m c i :=
  (sum_idx2 (Array.stacked m c)).trans (Focal.sum_outEntry (Accum.terms m c))

/-- THE RESULT: what the host operations after the grid leave in the result buffer. -/
theorem result_eq (c : Dev nD) :
    Pipeline.afterTail₀ cfgs (dats m) 0 (V0 m) [hostOps1] c main_v5
      = fun _ => Focal.lossOf (∑ i : Fin 33554432, Accum.terms m c i) := by
  unfold Pipeline.afterTail₀
  show StableHlo.after hostOps1 _ (Proc.devRef .tc main_v5) = _
  after_results
  have hA : Pipeline.withArrays (cfgs 0).spec c (V0 m c) (fun w => (dats m 0 c).arrAt w (cfgs 0).N)
      (Proc.devRef .tc main_v2) = Array.stacked m c :=
    (Pipeline.withArrays_arr spec0 launch0.win.arr_inj c _ _ 2).trans (Array.final_array m c)
  rw [hA]
  funext j
  show -(Ideal.div (Host.reduceAdd (F := Ideal) (Array.stacked m c) (constant (F := Ideal) S_ .f32 0x00000000#32)
      reducesTo_S16x128_S_d0_1 h_S_ j) (Ideal.ofBits .f32 0x4C000000#32)) = _
  rw [host_sum_apply, array_sum]
  rfl

/-- The run, read: the result buffer at the loss of the total, the arguments unchanged. -/
theorem run : θ_run defs (onTc (τ := τ) (main (F := Ideal))) ⟨m, fun _ => 0, ρ⟩ fun r => ∀ c : Dev nD,
      r.2.mem ((c : Thread nD τ).loc main_v5) = (fun _ => Focal.lossOf (∑ i : Fin 33554432, Accum.terms m c i))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v5 (Pipeline.mem_restRefs_of main_v5 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.LibIdx1.lean ====
/-
  A rank-1 index set is its one coordinate's range, so a sum over the indices of a vector of length n is the sum over
  Fin n of the entries at `ix1`.  (The rank-2 form, `sum_idx2`, is in the library's Lib/ValueIdx.lean.)
-/
import Idealize.ShloMosaic.Lib.ValueIdx

noncomputable section

namespace Cert.Idx1

open Idealize.ShloMosaic Idealize.ShloMosaic.ValueIdx

/-- A rank-1 index set is the range of its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Idx1

end
-- ==== Proof.RefValue.lean ====
/-
  The idealized reference's result, as one function of the argument arrays.

  The reference works on the flat arrays directly: for every element it forms both branches of the focal term
  (`log x · |1 - x| ^ 2 · 1` and `log (1 - x) · |x| ^ 2 · 1`), chooses by the label, sums all 33,554,432 choices from the
  zero word, divides by the number of elements and negates.  So it ends with `lossOf (∑ i, bothTerm (x i) (t i))`.
-/
import proofs.«144632_j40870908788865_2_alg».proof.Proof.Gen.ReferenceIdeal.Read
import proofs.«144632_j40870908788865_2_alg».proof.Proof.FocalTerm
import proofs.«144632_j40870908788865_2_alg».proof.Proof.FocalLoss
import proofs.«144632_j40870908788865_2_alg».proof.Proof.LibIdx1

noncomputable section

open Idealize.ShloMosaic Idealize.ShloMosaic.TcCoe Idealize.SL.Sem
open Idealize.ShloMosaic.ValueIdx

namespace Cert.ReferenceIdeal.RefValue

open Cert.ReferenceIdeal Cert.ReferenceIdeal.Gen Cert.ReferenceIdeal.Read

/-- The chosen branch at one element is the both-branches form of the focal term. -/
theorem elem_apply (x0 : (⟨S33554432, .f32⟩ : BufTy).Contents (Elt Ideal)) (x1 : (⟨S33554432, .i32⟩ : BufTy).Contents (Elt Ideal))
    (j : S33554432.Idx) : val_main_v20 (F := Ideal) x0 x1 j = Focal.bothTerm (x0 j) (x1 j) := by
  simp only [val_main_v20_apply, val_main_v19_apply, val_main_v18_apply, val_main_c_apply,
    val_main_v8_apply, val_main_v7_apply, val_main_cst_1_apply, val_main_v6_apply, val_main_v5_apply,
    val_main_v4_apply, val_main_cst_0_apply, val_main_v3_apply, val_main_v2_apply, val_main_v1_apply,
    val_main_cst_apply, val_main_v0_apply,
    val_main_v17_apply, val_main_v16_apply, val_main_cst_4_apply, val_main_v15_apply, val_main_v14_apply,
    val_main_v13_apply, val_main_cst_3_apply, val_main_v12_apply, val_main_v11_apply, val_main_v10_apply,
    val_main_v9_apply, val_main_cst_2_apply]
  rfl

/-- THE RESULT: the loss of the total of the both-branches terms over the flat positions. -/
theorem value (x0 : (⟨S33554432, .f32⟩ : BufTy).Contents (Elt Ideal)) (x1 : (⟨S33554432, .i32⟩ : BufTy).Contents (Elt Ideal)) :
    val_main_v23 (F := Ideal) x0 x1
      = fun _ => Focal.lossOf (∑ i : Fin 33554432, Focal.bothTerm (x0 (ix1 i)) (x1 (ix1 i))) := by
  funext j
  rw [val_main_v23_apply, val_main_v22_apply, val_main_v21_apply, val_main_cst_5_apply, val_main_cst_6_apply]
  simp only [elem_apply]
  rw [Cert.Idx1.sum_idx1]
  rfl

end Cert.ReferenceIdeal.RefValue

end
-- ==== Proof.LibFinite.lean ====
/-
  Finiteness read back from a printed "all entries finite" test, at the ideal float values
  (every float an extended real). The test of one array x is the conjunction over all indices of
  |x i| < +∞, where |x| is max x (-x) and +∞ is the value of the IEEE pattern 0x7F800000; it
  is printed as a reduction by "and" of the array of comparison bits, from the constant 1, into a
  result with a single index.

  Contents.
  * one element: |x| < +∞ (as a comparison bit equal to 1) makes x a real number;
  * one array: a reduction by "and" over all axes of those bits that is 1 makes every entry real;
  * the empty-rank shape has one index.
-/
import Idealize.ShloMosaic.Lib.ReduceAll
import Idealize.ShloMosaic.PureOps.Ideal

noncomputable section

namespace Cert.Finite

open Idealize.ShloMosaic

/-- An extended real that is neither infinity is a real number. -/
theorem exists_real_of_ne {x : EReal} (ht : x ≠ ⊤) (hb : x ≠ ⊥) : ∃ r : ℝ, x = (r : EReal) := by
  induction x using EReal.rec with
  | bot => exact absurd rfl hb
  | coe r => exact ⟨r, rfl⟩
  | top => exact absurd rfl ht

/-- The IEEE single-precision pattern 0x7F800000 denotes +∞. -/
theorem ofBits_inf : Ideal.ofBits .f32 0x7F800000#32 = (⊤ : EReal) := by
  simp [Ideal.ofBits, Ideal.ieee]

/-- For an extended real x, max x (-x) < ⊤ exactly when x is neither infinity. -/
theorem abs_lt_top_iff (x : EReal) : max x (-x) < ⊤ ↔ x ≠ ⊤ ∧ x ≠ ⊥ := by
  rw [max_lt_iff, lt_top_iff_ne_top, lt_top_iff_ne_top]
  constructor
  · rintro ⟨h1, h2⟩
    exact ⟨h1, fun hb => h2 (by rw [hb]; rfl)⟩
  · rintro ⟨h1, h2⟩
    exact ⟨h1, fun ht => h2 (by simpa using ht)⟩

/-- One element: if the comparison bit of |x| < +∞ is 1 then x is a real number. Here |x| is the
    host's absolute value max x (-x) and +∞ is given by its bit pattern. -/
theorem real_of_abs_lt_inf (x : Ideal .f32)
    (h : FloatOps.cmpf (F := Ideal) .olt (FloatOps.hostAbsf (F := Ideal) x)
        (FloatOps.ofBits (F := Ideal) .f32 0x7F800000#32) = 1#1) : ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  have hlt : max (x : EReal) (-(x : EReal)) < ⊤ := by
    by_contra hn
    simp [hn] at h'
  obtain ⟨ht, hb⟩ := (abs_lt_top_iff x).mp hlt
  exact exists_real_of_ne ht hb

/-- One array: if the reduction by "and" over all axes (into a result with one index) of the bits
    |x i| < inf i is 1, where every inf i is the pattern of +∞, then every entry of x is real. -/
theorem real_of_all {s t u : Shape} {axes : List (Fin s.rank)} [Subsingleton t.Idx]
    (x inf : FVec Ideal s .f32) (hinf : ∀ i, inf i = FloatOps.ofBits (F := Ideal) .f32 0x7F800000#32)
    (init : IVec u 1) (h : s.ReducesTo axes t) (hu : 0 < u.numel) (j : t.Idx)
    (e : Host.reduce IntOp.andi (cmpf (F := Ideal) .olt (Host.absf (F := Ideal) x) inf) init h hu j = 1#1)
    (i : s.Idx) : ∃ r : ℝ, (x i : EReal) = (r : EReal) := by
  have hi := Host.reduce_andi_all _ init h hu j e i
  refine real_of_abs_lt_inf (x i) ?_
  rw [← hinf i]
  exact hi

/-- The shape of rank zero has exactly one index. -/
instance subsingleton_idx_rank0 : Subsingleton (Shape.Idx ⟨0, ![]⟩) :=
  ⟨fun a b => funext fun d => d.elim0⟩

end Cert.Finite

end
-- ==== Proof.FiniteInputs.lean ====
/-
  The precondition, read: every probability is a real number.

  The precondition is the printed test "all |input i| < +∞", one bit on every device.  Where it is 1, every entry of the
  probabilities is neither infinity, hence a real number — which is what the law between the two arrangements of the
  focal term needs.  (The labels are integers; the test says nothing of them and nothing is needed.)
-/
import proofs.«144632_j40870908788865_2_alg».proof.Defs
import proofs.«144632_j40870908788865_2_alg».proof.Proof.Gen.KernelIdeal
import proofs.«144632_j40870908788865_2_alg».proof.Proof.Gen.Pre_finite_inputs
import proofs.«144632_j40870908788865_2_alg».proof.Proof.LibFinite
import Idealize.ShloMosaic.Lib.Pipeline.Value
import Idealize.ShloMosaic.Lib.ValueIdx

noncomputable section

open Idealize.ShloMosaic Idealize.ShloMosaic.TcCoe Idealize.SL.Sem
open Idealize.ShloMosaic.ValueIdx

namespace Cert.Proof.FiniteInputs

/-- Under the precondition every entry of the kernel's first argument is a real number. -/
theorem probs_real (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S33554432.Idx) :
    ∃ r : ℝ, (m ((c.tc : Thread Cert.KernelIdeal.nD Cert.KernelIdeal.τ).loc Cert.KernelIdeal.main_arg0) i : EReal)
      = (r : EReal) := by
  have h := congrFun (hpre c) ix0
  dsimp only [Cert.Pre_finite_inputs.fn] at h
  refine Cert.Finite.real_of_all _ _ (fun k => ?_) _ _ _ ix0 h i
  exact broadcastInDim_apply _ _ _ k (fun a => a.elim0) (fun a => a.elim0)

end Cert.Proof.FiniteInputs

end
-- ==== Proof.lean ====
/-
  A focal loss over 33,554,432 probabilities `x` and labels `t`, two ways, equal on the extended reals.

  Per element the loss term is `log x · (1 - x)²` under label one and `log (1 - x) · x²` otherwise; the loss is minus the
  mean of the terms.

  THE KERNEL regroups the flat arrays as 262,144 rows of 128 lanes and walks them on a 2 × 16 grid, one tile of 8192 rows
  per point.  It selects the active probability `p` first, forms `log p · ((1 - p) · (1 - p))`, folds the tile's 1024
  groups of 8 rows into an 8 × 128 block, and accumulates the block over the 16 tiles of a chunk (reset at the chunk's
  first tile, written back after its last).  The host then sums the 16 × 128 array, divides by the count and negates.
  THE REFERENCE forms both branches on the flat arrays with `|·| ^ 2` and a trailing factor one, chooses by the label,
  sums everything, divides and negates.

  Why they agree.  (1) On a FINITE probability the two arrangements of the term are one extended real: `1 - (1 - x) = x`
  and `|y| ^ 2 = y · y` in the reals (FocalTerm).  This is where the precondition is used: at an infinite `x` the first
  identity fails.  (2) The block after a chunk's last tile is the sum over its 16 tiles and 1024 row groups (KernelAccum,
  by induction on the grid point), and the 16 × 128 entries count every flat position exactly once — chunk, height, lane,
  tile and row group are the position's mixed-radix digits (FocalLayout) — so, addition on the extended reals being
  commutative and associative, the array's sum is the sum of all terms.  (3) Both programs finish with the same three
  steps on the same two words, which are therefore never evaluated (FocalLoss).

  The three frames: the kernel's two are the generated frame runs; the reference's is its generated run with the result
  dropped.  The idealization rewrote nothing, so `preserves` is `True`.
-/
import proofs.«144632_j40870908788865_2_alg».proof.Defs
import proofs.«144632_j40870908788865_2_alg».proof.Proof.Gen.Kernel
import proofs.«144632_j40870908788865_2_alg».proof.Proof.Gen.Kernel.Frame
import proofs.«144632_j40870908788865_2_alg».proof.Proof.Gen.KernelIdeal
import proofs.«144632_j40870908788865_2_alg».proof.Proof.Gen.KernelIdeal.Frame
import proofs.«144632_j40870908788865_2_alg».proof.Proof.Gen.ReferenceIdeal
import proofs.«144632_j40870908788865_2_alg».proof.Proof.Gen.Pre_finite_inputs
import proofs.«144632_j40870908788865_2_alg».proof.Proof.Gen.ReferenceIdeal.Run
import proofs.«144632_j40870908788865_2_alg».proof.Proof.Gen.ReferenceIdeal.Read
import proofs.«144632_j40870908788865_2_alg».proof.Proof.KernelResult
import proofs.«144632_j40870908788865_2_alg».proof.Proof.RefValue
import proofs.«144632_j40870908788865_2_alg».proof.Proof.FiniteInputs
import Idealize.ShloMosaic.Adequacy
import Idealize.ShloMosaic.Init

noncomputable section

namespace Cert.Proof

open Idealize.ShloMosaic Idealize.ShloMosaic.TcCoe Idealize.SL.Sem
open Idealize.ShloMosaic.ValueIdx

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on finite probabilities and on the labels, the kernel ends at the
    loss of the total of the select-first terms and the reference at the loss of the total of the both-branches terms:
    the same total, term by term. -/
theorem algebraic : Cert.algebraic_KernelIdeal_ReferenceIdeal := by
  intro m ρ m' ρ' hpre hagree
  refine ⟨fun c => (fun _ => Focal.lossOf (∑ i : Fin 33554432, Cert.KernelIdeal.Accum.terms m c i)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.value, (hagree c).1, (hagree c).2]
  funext _
  refine congrArg Focal.lossOf (Finset.sum_congr rfl fun i _ => ?_)
  obtain ⟨r, hr⟩ := FiniteInputs.probs_real m hpre c (ix1 i)
  show Focal.bothTerm (m ((c.tc : Thread Cert.KernelIdeal.nD Cert.KernelIdeal.τ).loc Cert.KernelIdeal.main_arg0) (ix1 i)) _
    = Focal.selTerm (m ((c.tc : Thread Cert.KernelIdeal.nD Cert.KernelIdeal.τ).loc Cert.KernelIdeal.main_arg0) (ix1 i)) _
  rw [hr]
  exact (Focal.selTerm_eq_bothTerm r _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
